-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S200 : Shape := ⟨1, ![200]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : IVec S200 32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  main_v3
-- ==== Kernel.lean ====
abbrev S8192x64 : Shape := ⟨2, ![8192, 64]⟩
abbrev S200 : Shape := ⟨1, ![200]⟩
abbrev S8192x8192 : Shape := ⟨2, ![8192, 8192]⟩
abbrev S1024x64 : Shape := ⟨2, ![1024, 64]⟩
abbrev S1024x1024 : Shape := ⟨2, ![1024, 1024]⟩
abbrev S1024 : Shape := ⟨1, ![1024]⟩
abbrev S1024x1 : Shape := ⟨2, ![1024, 1]⟩
abbrev S64x1024 : Shape := ⟨2, ![64, 1024]⟩
abbrev S1x1024 : Shape := ⟨2, ![1, 1024]⟩
abbrev S100x2 : Shape := ⟨2, ![100, 2]⟩
abbrev S100x1 : Shape := ⟨2, ![100, 1]⟩
abbrev S100 : Shape := ⟨1, ![100]⟩
abbrev S_ : Shape := ⟨0, ![]⟩
abbrev S50x2 : Shape := ⟨2, ![50, 2]⟩

abbrev nBuf : Space → Nat
  | .hbm => 27
  | .vmem => 6
  | .smem => 0
  | _ => 0

abbrev bufTy : (tb : Table) → Fin (tcTables nBuf tb) → BufTy
  | .hbm, ⟨0, _⟩ => ⟨S8192x64, .f32⟩
  | .hbm, ⟨1, _⟩ => ⟨S200, .i32⟩
  | .hbm, ⟨2, _⟩ => ⟨S8192x8192, .f32⟩
  | .hbm, ⟨3, _⟩ => ⟨S100x2, .i32⟩
  | .hbm, ⟨4, _⟩ => ⟨S100x1, .i32⟩
  | .hbm, ⟨5, _⟩ => ⟨S100, .i32⟩
  | .hbm, ⟨6, _⟩ => ⟨S100x1, .i32⟩
  | .hbm, ⟨7, _⟩ => ⟨S100, .i32⟩
  | .hbm, ⟨8, _⟩ => ⟨S_, .i32⟩
  | .hbm, ⟨9, _⟩ => ⟨S100, .i32⟩
  | .hbm, ⟨10, _⟩ => ⟨S100, .i1⟩
  | .hbm, ⟨11, _⟩ => ⟨S_, .i32⟩
  | .hbm, ⟨12, _⟩ => ⟨S100, .i32⟩
  | .hbm, ⟨13, _⟩ => ⟨S100, .i32⟩
  | .hbm, ⟨14, _⟩ => ⟨S100, .i32⟩
  | .hbm, ⟨15, _⟩ => ⟨S_, .i32⟩
  | .hbm, ⟨16, _⟩ => ⟨S100, .i32⟩
  | .hbm, ⟨17, _⟩ => ⟨S100, .i1⟩
  | .hbm, ⟨18, _⟩ => ⟨S_, .i32⟩
  | .hbm, ⟨19, _⟩ => ⟨S100, .i32⟩
  | .hbm, ⟨20, _⟩ => ⟨S100, .i32⟩
  | .hbm, ⟨21, _⟩ => ⟨S100, .i32⟩
  | .hbm, ⟨22, _⟩ => ⟨S100x1, .i32⟩
  | .hbm, ⟨23, _⟩ => ⟨S100x1, .i32⟩
  | .hbm, ⟨24, _⟩ => ⟨S100x2, .i32⟩
  | .hbm, ⟨25, _⟩ => ⟨S100, .f32⟩
  | .hbm, ⟨26, _⟩ => ⟨S50x2, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x1024, .f32⟩
  | .local _ .vmem, ⟨5, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c_1 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  transposes_S1024x64_p1_0_S64x1024 : S1024x64.Transposes [1, 0] S64x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S200_S100x2 : S200.ShapeCasts S100x2
  slices_S100x2_S100x1_0_0 : S100x2.Slices ![0, 0] S100x1
  shapeCasts_S100x1_S100 : S100x1.ShapeCasts S100
  slices_S100x2_S100x1_0_1 : S100x2.Slices ![0, 1] S100x1
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  shapeCasts_S100_S50x2 : S100.ShapeCasts S50x2
  dot_S1024x64_S64x1024_S1024x1024_1_0_0_1_n_n_wf : DotDims.WF S1024x64 S64x1024 S1024x1024 [1] [0] [0] [1] [] []
  gather_S8192x8192_S100x2_S100_n_01_n_n_01_1_11_wf : GatherDims.WF S8192x8192 S100x2 S100 [] [0, 1] [] [0, 1] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x8192.size a
  hwx0_2 : ∀ i : grid0.Coords, EltTy.bits .f32 = 32 ∨ (Rect.block (s := S8192x8192) S1024x1024.size (cc0_transform_2 i) (hinb0_2 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def gather_S8192x8192_S100x2_S100_n_01_n_n_01_1_11 : GatherDims S8192x8192 S100x2 S100 where
  offsetDims := []
  collapsedSliceDims := [0, 1]
  operandBatchingDims := []
  startIndicesBatchingDims := []
  startIndexMap := [0, 1]
  indexVectorDim := 1
  sliceSizes := ![1, 1]
  wf := gather_S8192x8192_S100x2_S100_n_01_n_n_01_1_11_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x64 : Shape := ⟨2, ![8192, 64]⟩
abbrev S200 : Shape := ⟨1, ![200]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S64x8192 : Shape := ⟨2, ![64, 8192]⟩
abbrev S100x2 : Shape := ⟨2, ![100, 2]⟩
abbrev S100x1 : Shape := ⟨2, ![100, 1]⟩
abbrev S100 : Shape := ⟨1, ![100]⟩
abbrev S50x2 : Shape := ⟨2, ![50, 2]⟩

abbrev nBuf : Space → Nat
  | .hbm => 55
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S200, .i32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S64x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .i1⟩
  | .hbm, ⟨22, _⟩ => ⟨S_, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S_, .f32⟩
  | .hbm, ⟨29, _⟩ => ⟨S8192x8192, .f32⟩
  | .hbm, ⟨30, _⟩ => ⟨S8192x8192, .f32⟩
  | .hbm, ⟨31, _⟩ => ⟨S100x2, .i32⟩
  | .hbm, ⟨32, _⟩ => ⟨S100x1, .i32⟩
  | .hbm, ⟨33, _⟩ => ⟨S100, .i32⟩
  | .hbm, ⟨34, _⟩ => ⟨S100x1, .i32⟩
  | .hbm, ⟨35, _⟩ => ⟨S100, .i32⟩
  | .hbm, ⟨36, _⟩ => ⟨S_, .i32⟩
  | .hbm, ⟨37, _⟩ => ⟨S100, .i32⟩
  | .hbm, ⟨38, _⟩ => ⟨S100, .i1⟩
  | .hbm, ⟨39, _⟩ => ⟨S_, .i32⟩
  | .hbm, ⟨40, _⟩ => ⟨S100, .i32⟩
  | .hbm, ⟨41, _⟩ => ⟨S100, .i32⟩
  | .hbm, ⟨42, _⟩ => ⟨S100, .i32⟩
  | .hbm, ⟨43, _⟩ => ⟨S_, .i32⟩
  | .hbm, ⟨44, _⟩ => ⟨S100, .i32⟩
  | .hbm, ⟨45, _⟩ => ⟨S100, .i1⟩
  | .hbm, ⟨46, _⟩ => ⟨S_, .i32⟩
  | .hbm, ⟨47, _⟩ => ⟨S100, .i32⟩
  | .hbm, ⟨48, _⟩ => ⟨S100, .i32⟩
  | .hbm, ⟨49, _⟩ => ⟨S100, .i32⟩
  | .hbm, ⟨50, _⟩ => ⟨S100x1, .i32⟩
  | .hbm, ⟨51, _⟩ => ⟨S100x1, .i32⟩
  | .hbm, ⟨52, _⟩ => ⟨S100x2, .i32⟩
  | .hbm, ⟨53, _⟩ => ⟨S100, .f32⟩
  | .hbm, ⟨54, _⟩ => ⟨S50x2, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_call1_v0 : Ref sig .tc := ⟨.hbm, 28, rfl⟩
abbrev main_call1_v1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x64_S64x8192_1_0 : S8192x64.Transposes [1, 0] S64x8192
  bcast_S_S8192x8192 : S_.BroadcastsInDim S8192x8192 (![] : Fin 0 → Fin S8192x8192.rank)
  shapeCasts_S200_S100x2 : S200.ShapeCasts S100x2
  slices_S100x2_S100x1_0_0 : S100x2.Slices ![0, 0] S100x1
  shapeCasts_S100x1_S100 : S100x1.ShapeCasts S100
  slices_S100x2_S100x1_0_1 : S100x2.Slices ![0, 1] S100x1
  bcast_S_S100 : S_.BroadcastsInDim S100 (![] : Fin 0 → Fin S100.rank)
  bcast_S100_S100x1_0 : S100.BroadcastsInDim S100x1 (![0] : Fin 1 → Fin S100x1.rank)
  concatenates_S100x1_S100x1_S100x2_d1 : Shape.Concatenates [S100x1, S100x1] S100x2 1
  shapeCasts_S100_S50x2 : S100.ShapeCasts S50x2
  dot_S8192x64_S64x8192_S8192x8192_1_0_0_1_n_n_wf : DotDims.WF S8192x64 S64x8192 S8192x8192 [1] [0] [0] [1] [] []
  gather_S8192x8192_S100x2_S100_n_01_n_n_01_1_11_wf : GatherDims.WF S8192x8192 S100x2 S100 [] [0, 1] [] [0, 1] [] 1 ![1, 1]

variable [Facts₀]

def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def gather_S8192x8192_S100x2_S100_n_01_n_n_01_1_11 : GatherDims S8192x8192 S100x2 S100 where
  offsetDims := []
  collapsedSliceDims := [0, 1]
  operandBatchingDims := []
  startIndicesBatchingDims := []
  startIndexMap := [0, 1]
  indexVectorDim := 1
  sliceSizes := ![1, 1]
  wf := gather_S8192x8192_S100x2_S100_n_01_n_n_01_1_11_wf

class Facts : Prop extends Facts₀ where

variable [Facts]
-- ==== Proof.DistBodyBits.lean ====
/-
  The kernel body at one grid point (i, j) of the 8 × 8 grid, and the data the pipeline rule needs about it.

  The body loads two 1024 × 64 row blocks of X — rows 1024·i … of the array through window 0 and rows 1024·j … through
  window 1, BOTH windows on the one argument array — and stores the 1024 × 1024 block of pairwise distances
  d(r, c) = select(d² > 0, sqrt(select(d² > 0, d², 1)), 0), d² = max((|x_r|² + |x_c|²) − 2·⟨x_r, x_c⟩, 0), into window 2's
  buffer; it also loads that buffer first, a value it never uses. So after the body the two input buffers hold what they
  held and the output buffer holds the one stored piece, whatever it held before.

  Because the two input windows stage the same array, the array's ownership is dealt between them: window 0 holds the
  left half of the full share and window 1 the right half (the pipeline only ever reads the array through them).
-/
import proofs.«145142_j9861244911651_1_alg».proof.Proof.Gen.Kernel.Launch
import proofs.«145142_j9861244911651_1_alg».proof.Proof.Gen.Kernel.Skeleton
import proofs.«145142_j9861244911651_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Pairwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arrays as the region finds them, and a window's block at a grid point -/

/-- The region is @main's first line, so it finds every buffer as launched. -/
abbrev entry (c : Dev nD) (b : Ref sig .tc) : Buf (Elt F) ((c : Thread nD τ).loc b) := m ((c : Thread nD τ).loc b)

/-- Window `w`'s block at point `t`, read off its array at the launch contents. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's buffer holds the window's block at every point, fetched there or not (unfetched, the block index
    has not moved since the fetch), for any proof data over the launch contents whose body leaves the block in place. -/
theorem before_rows_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_cols_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 1024 × 64 buffer (both loads), and the whole 1024 × 1024 buffer (the unused load and the store). -/
abbrev rowsRect : Rect S1024x64 := Rect.unit (s := S1024x64) ![0, 0] S1024x64.size inb_S1024x64_S1024x64_0_0
abbrev distRect : Rect S1024x1024 := Rect.unit (s := S1024x1024) ![0, 0] S1024x1024.size inb_S1024x1024_S1024x1024_0_0

/-- The output buffer after the body: the one stored piece, the distances of the two loaded row blocks. -/
def distBlock (xi : Vec F S1024x64 .f32) (xj : Vec F S1024x64 .f32) : Vec F S1024x1024 .f32 :=
  View.canon [⟨distRect, k0_pay1 (View.ld xi rowsRect) (View.ld xj rowsRect)⟩]

/-- The store's rectangle is the whole buffer, so it covers it. -/
theorem dist_cover (p0 : Vec F S1024x1024 .f32) (y : S1024x1024.Idx) :
    ∃ pc ∈ ([⟨distRect, p0⟩] : List (View.Piece (Elt F) S1024x1024 .f32)), y ∈ pc.1.set :=
  View.cover_of_tiled [⟨distRect, p0⟩] S1024x1024.size (by rfl) y

/-! ## The body's triple -/

set_option maxHeartbeats 1000000 in
/-- On whole buffers, the inputs' at contents `xi`, `xj` and the output's at anything, the body runs to the inputs' as
    they were and the output's at `distBlock xi xj`. -/
theorem body_triple (c : Dev nD) (E : Set ℕ) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (xi : Vec F S1024x64 .f32) (xj : Vec F S1024x64 .f32) (K : PUnit → sProp 𝕄) :
    iprop(owns (c : Thread nD τ) arg2 fullShare xi ∗ owns (c : Thread nD τ) arg3 fullShare xj ∗ (∃ d, owns (c : Thread nD τ) arg4 fullShare d)
        ∗ (iprop(owns (c : Thread nD τ) arg2 fullShare xi ∗ owns (c : Thread nD τ) arg3 fullShare xj ∗ owns (c : Thread nD τ) arg4 fullShare (distBlock xi xj)) -∗ K ⟨⟩))
      ⊢ wp frame (wpE (defs₀ (F := F)) Variants.none c none) E (cc0__pairwise_distance_kernel i arg2 harg2 arg3 harg3 arg4 harg4) K := by
  simp only [cc0__pairwise_distance_kernel_eq_skeleton]; unfold cc0__pairwise_distance_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (dist_cover _)

/-! ## The pipeline's proof data -/

/-- On core `c`: the arrays at the launch contents; after the body at point `t` each input buffer at its block and the
    output buffer at the distances of the two blocks; the invariant the scoped rest and the generator register,
    untouched; nothing owed; the shared argument array dealt in halves to the two input windows. -/
def dat (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => distBlock (blockAt m c 0 t) (blockAt m c 1 t)
  Φ _ := Pipeline.ΦA spec0 c
  q w := match w with
    | ⟨0, _⟩ => fullShare.left
    | ⟨1, _⟩ => fullShare.right
    | ⟨2, _⟩ => fullShare
  owed _ := 0

theorem dat_A (c : Dev nD) (w : Fin cfg0.W) : (dat m c).A w = entry m c (Pipeline.arrRef spec0 w) := by
  dsimp only [dat]
theorem after_rows (c : Dev nD) (t : Fin cfg0.N) : (dat m c).after 0 t = blockAt m c 0 t := by dsimp only [dat]
theorem after_cols (c : Dev nD) (t : Fin cfg0.N) : (dat m c).after 1 t = blockAt m c 1 t := by dsimp only [dat]
theorem after_dist (c : Dev nD) (t : Fin cfg0.N) : (dat m c).after 2 t = distBlock (blockAt m c 0 t) (blockAt m c 1 t) := by dsimp only [dat]

theorem before_rows (c : Dev nD) (t : Fin cfg0.N) (d) : (dat m c).before 0 t d = blockAt m c 0 t :=
  before_rows_of m (dat m c) (dat_A m c 0) (after_rows m c) t d
theorem before_cols (c : Dev nD) (t : Fin cfg0.N) (d) : (dat m c).before 1 t d = blockAt m c 1 t :=
  before_cols_of m (dat m c) (dat_A m c 1) (after_cols m c) t d

/-! ## The body obligation -/

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d)))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t))

/-- At any point the input buffers hold their blocks, so the body's triple applies; the invariant and what the core
    owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dat m c).Φ t.succ = (dat m c).Φ t.castSucc from rfl,
    show (dat m c).owesAt () t.succ = (dat m c).owesAt () t.castSucc from rfl,
    after_rows, after_cols, after_dist]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) m c) (defs₀ (F := F)) Variants.none () Set.univ := fun t => by
  rw [bigSep_W0, bigSep_W0]
  exact body_at m c t

end Cert.Kernel.Pairwise

end
-- ==== Proof.DistRunBits.lean ====
/-
  The whole run of @main: the kernel region, then the 24 host operations that turn `ids` into index pairs and gather.

  The pipeline rule asks, at the region's entry, for each window's array at that window's share. Windows 0 and 1 stage
  the SAME argument array, so the array's full ownership is split there into its left and right halves, one per window
  (both halves at the same contents), and joined again at the exit: the pipeline never writes an input array, so both
  halves still hold the launch contents. The output array goes in whole and comes back at what the write-backs left.
  After the region every unscoped buffer is held again, the output array at its final contents and every other buffer
  as launched, and the host operations run from there.
-/
import proofs.«145142_j9861244911651_1_alg».proof.Proof.DistBodyBits
import Idealize.ShloMosaic.Lib.Pipeline.Frame
import Idealize.ShloMosaic.Lib.Pipeline.Regions

set_option maxRecDepth 16384

noncomputable section

namespace Cert.Kernel.Pairwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev atLaunch : Dev nD → Valuation τ sig (Elt F) := fun c b => m ((c : Dev nD), b)

/-- After the region: the distance matrix's buffer at what the 64 write-backs left, every other buffer as launched. -/
def afterRegion (c : Dev nD) : Valuation τ sig (Elt F) :=
  Function.update (atLaunch m c) (Proc.devRef .tc main_v0) ((dat m c).arrAt 2 cfg0.N)

theorem afterRegion_dist (c : Dev nD) : afterRegion m c (Proc.devRef .tc main_v0) = (dat m c).arrAt 2 cfg0.N := by
  unfold afterRegion; exact Function.update_self ..
theorem afterRegion_of_ne (c : Dev nD) (b : Ref sig .tc) (h : b ≠ main_v0) :
    afterRegion m c (Proc.devRef .tc b) = atLaunch m c (Proc.devRef .tc b) := by
  unfold afterRegion
  exact Function.update_of_ne (StableHlo.devRef_ne_of_ne h) ..

/-- After the host operations. -/
def atEnd (c : Dev nD) : Valuation τ sig (Elt F) := StableHlo.after hostOps1 (afterRegion m c)

/-! ## The unscoped buffers as the two arrays' buffers and the rest; the windows' arrays at their shares -/

/-- The two distinct buffers behind the three windows' arrays. -/
theorem arrBufs_two (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] (by decide) (by decide) _

/-- Every unscoped buffer held at `W` is those two buffers and the rest at `W`. -/
theorem held_split (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_v0) ↦{fullShare} W (Proc.devRef .tc main_v0))
          ∗ Pipeline.unscopedRest spec0 c (fun b => W (Proc.devRef .tc b))) := by
  have hs : (unscopedBufs c (fun b => W (Proc.devRef .tc b)) : sProp 𝕄)
      = iprop(Pipeline.arrBufs spec0 c (fun b => W (Proc.devRef .tc b)) ∗ Pipeline.unscopedRest spec0 c (fun b => W (Proc.devRef .tc b))) :=
    Pipeline.PerCore.unscopedBufs_split₀ (fun _ : Dev nD => cfgs) (0 : Fin 1) c winFacts₀0.arr_unscoped _
  rw [← Pipeline.unscopedBufs_held (Ix := Unit) (Name := ℕ) (U := UR sig nD τ) (Lvl := ℕ) c W, hs, arrBufs_two]
  exact equiv_iff.mp ⟨BI.sep_assoc, BI.sep_assoc'⟩

/-- The windows' arrays at contents `A`: the argument array's left half for window 0, its right half for window 1, the
    distance matrix whole for window 2. -/
theorem arrays_three (c : Dev nD) (A : (w : Fin cfg0.W) → Buf (Elt F) ((cfg0.win w).arr.view.loc (c : Thread nD τ))) :
    ((dat m c).arrays A : sProp 𝕄)
      = iprop((((c : Thread nD τ).loc main_arg0) ↦{fullShare.left} A 0) ∗ (((c : Thread nD τ).loc main_arg0) ↦{fullShare.right} A 1)
          ∗ (((c : Thread nD τ).loc main_v0) ↦{fullShare} A 2)) := by
  unfold Dat.arrays
  rw [bigSep_W0]
  have h0 : (cfg0.win (0 : Fin 3)).arr.view.set = Finset.univ := (arr_whole0 0).set_eq_univ
  have h2 : (cfg0.win (2 : Fin 3)).arr.view.set = Finset.univ := (arr_whole0 2).set_eq_univ
  rw [h0, h2]
  rfl

/-- The rest does not see the distance matrix's buffer. -/
theorem rest_afterRegion (c : Dev nD) :
    (Pipeline.unscopedRest spec0 c (fun b => afterRegion m c (Proc.devRef .tc b)) : sProp 𝕄)
      = Pipeline.unscopedRest spec0 c (fun b => atLaunch m c (Proc.devRef .tc b)) := by
  unfold Pipeline.unscopedRest
  exact bigSep_congr fun b hb => by
    beta_reduce
    rw [afterRegion_of_ne m c b fun e => (Finset.mem_sdiff.mp hb).2 (e ▸ Finset.mem_image.mpr ⟨2, Finset.mem_univ _, rfl⟩)]

/-! ## The segments -/

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dat m c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the generator register at some state, and the core owing nothing. -/
abbrev beside (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

set_option backward.isDefEq.respectTransparency.types false in
/-- The kernel region, entered from every unscoped buffer at the launch contents and left at `afterRegion`. -/
def region : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (atLaunch m c) ∗ beside c)
  post c := iprop(StableHlo.held (c : Thread nD τ) (Pipeline.ucRefs τ sig) (afterRegion m c) ∗ beside c)
  X c := iprop(∃ r, prngReg c r)
  Y c := iprop(∃ r, prngReg c r)
  Z c := Pipeline.unscopedRest (Ix := Unit) (Name := ℕ) (U := UR sig nD τ) (Lvl := ℕ) spec0 c (fun b => atLaunch m c (Proc.devRef .tc b))
  hentry c := by
    rw [Pipeline.ownSems0_none, held_split]
    rw [show (pdats m 0 c).arrays ((pdats m 0 c).arrAt · 0) = (dat m c).arrays ((dat m c).arrAt · 0) from rfl, arrays_three]
    iintro ⟨⟨⟨Ha, Hv, Hrest⟩, Hp, HO⟩, -, -⟩
    ihave Hs := (pointsTo_share (PosShare.mem_left_op_right fullShare)).1 $$ Ha
    icases Hs with ⟨Hl, Hr⟩
    imodintro
    isplitl [Hl Hr Hv]
    · isplitl [Hl]; · iexact Hl
      isplitl [Hr]; · iexact Hr
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_split, rest_afterRegion, afterRegion_dist, afterRegion_of_ne m c main_arg0 (by decide)]
    rw [show (pdats m 0 c).arrays ((pdats m 0 c).arrAt · (Pipeline.pin (pcfgs (F := F)) adm 0).N) = (dat m c).arrays ((dat m c).arrAt · cfg0.N) from rfl, arrays_three,
      (dat m c).arrAt_in 0 rfl, (dat m c).arrAt_in 1 rfl]
    iintro ⟨⟨Hl, Hr, Hv⟩, HO, HY, Hrest⟩
    ihave Ha := (pointsTo_share (PosShare.mem_left_op_right fullShare)).2 $$ [Hl Hr]
    · isplitl [Hl]; · iexact Hl
      iexact Hr
    imodintro
    isplitl [Ha Hv Hrest]
    · isplitl [Ha]; · iexact Ha
      isplitl [Hv]; · iexact Hv
      iexact Hrest
    isplitl [HY]; · iexact HY
    unfold Pipeline.Dat.owesAt Pipeline.owesWithin
    icases HO with ⟨%W, -, HO⟩; iexists W; iexact HO

/-- The host operations after the region, over every unscoped buffer from `afterRegion`. -/
abbrev hostTail : HostSeg (Name := ℕ) (U := UR sig nD τ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (afterRegion m) beside

abbrev segs : List (Seg (pcfgs (F := F)) adm (pdats m) () defs₀ 𝒱₀ L lv) :=
  [ .region (region m), .host (hostTail m) ]

theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- From any memory with zero counters every weakly fair execution of @main terminates, faulting nowhere, and every
    final state has every unscoped buffer at `atEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c))
    (Tₙ := fun c => iprop(StableHlo.held (c : Thread nD τ) (Pipeline.ucRefs τ sig) (atEnd m c) ∗ ∃ r, prngReg c r))
    (hch := ⟨fun _ => .rfl, fun _ => .rfl, fun c => by
      show iprop(StableHlo.held (c : Thread nD τ) (Pipeline.ucRefs τ sig) (StableHlo.after hostOps1 (afterRegion m c)) ∗ beside c)
        ⊢ iprop(iprop(StableHlo.held (c : Thread nD τ) (Pipeline.ucRefs τ sig) (atEnd m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

/-! ## The arguments end as launched -/

theorem atEnd_arg0 (c : Dev nD) : atEnd m c (Proc.devRef .tc main_arg0) = m ((c : Thread nD τ).loc main_arg0) := by
  have e : atEnd m c (Proc.devRef .tc main_arg0) = afterRegion m c (Proc.devRef .tc main_arg0) := by
    show StableHlo.after hostOps1 (afterRegion m c) (Proc.devRef .tc main_arg0) = _
    after_results
  exact e.trans (afterRegion_of_ne m c main_arg0 (by decide))
theorem atEnd_arg1 (c : Dev nD) : atEnd m c (Proc.devRef .tc main_arg1) = m ((c : Thread nD τ).loc main_arg1) := by
  have e : atEnd m c (Proc.devRef .tc main_arg1) = afterRegion m c (Proc.devRef .tc main_arg1) := by
    show StableHlo.after hostOps1 (afterRegion m c) (Proc.devRef .tc main_arg1) = _
    after_results
  exact e.trans (afterRegion_of_ne m c main_arg1 (by decide))

/-- The run read at the result and at the two arguments. -/
theorem run_main : θ_run defs (onTc (τ := τ) (main (F := F))) ⟨m, fun _ => 0, ρ⟩ (fun r => ∀ c : Dev nD,
      r.2.mem ((c.tc : Thread nD τ).loc main_v20) = atEnd m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v20 (by decide)),
     (h c _ (mem_uc main_arg0 (by decide))).trans (atEnd_arg0 m c),
     (h c _ (mem_uc main_arg1 (by decide))).trans (atEnd_arg1 m c)⟩) (run_all m ρ)

/-- The frame: @main runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Pairwise

end
-- ==== Proof.DistBody.lean ====
/-
  The kernel body at one grid point (i, j) of the 8 × 8 grid, and the data the pipeline rule needs about it.

  The body loads two 1024 × 64 row blocks of X — rows 1024·i … of the array through window 0 and rows 1024·j … through
  window 1, BOTH windows on the one argument array — and stores the 1024 × 1024 block of pairwise distances
  d(r, c) = select(d² > 0, sqrt(select(d² > 0, d², 1)), 0), d² = max((|x_r|² + |x_c|²) − 2·⟨x_r, x_c⟩, 0), into window 2's
  buffer; it also loads that buffer first, a value it never uses. So after the body the two input buffers hold what they
  held and the output buffer holds the one stored piece, whatever it held before.

  Because the two input windows stage the same array, the array's ownership is dealt between them: window 0 holds the
  left half of the full share and window 1 the right half (the pipeline only ever reads the array through them).
-/
import proofs.«145142_j9861244911651_1_alg».proof.Proof.Gen.KernelIdeal.Launch
import proofs.«145142_j9861244911651_1_alg».proof.Proof.Gen.KernelIdeal.Skeleton
import proofs.«145142_j9861244911651_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Pairwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arrays as the region finds them, and a window's block at a grid point -/

/-- The region is @main's first line, so it finds every buffer as launched. -/
abbrev entry (c : Dev nD) (b : Ref sig .tc) : Buf (Elt F) ((c : Thread nD τ).loc b) := m ((c : Thread nD τ).loc b)

/-- Window `w`'s block at point `t`, read off its array at the launch contents. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's buffer holds the window's block at every point, fetched there or not (unfetched, the block index
    has not moved since the fetch), for any proof data over the launch contents whose body leaves the block in place. -/
theorem before_rows_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_cols_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)

/-! ## What the body stores -/

/-- The whole 1024 × 64 buffer (both loads), and the whole 1024 × 1024 buffer (the unused load and the store). -/
abbrev rowsRect : Rect S1024x64 := Rect.unit (s := S1024x64) ![0, 0] S1024x64.size inb_S1024x64_S1024x64_0_0
abbrev distRect : Rect S1024x1024 := Rect.unit (s := S1024x1024) ![0, 0] S1024x1024.size inb_S1024x1024_S1024x1024_0_0

/-- The output buffer after the body: the one stored piece, the distances of the two loaded row blocks. -/
def distBlock (xi : Vec F S1024x64 .f32) (xj : Vec F S1024x64 .f32) : Vec F S1024x1024 .f32 :=
  View.canon [⟨distRect, k0_pay1 (View.ld xi rowsRect) (View.ld xj rowsRect)⟩]

/-- The store's rectangle is the whole buffer, so it covers it. -/
theorem dist_cover (p0 : Vec F S1024x1024 .f32) (y : S1024x1024.Idx) :
    ∃ pc ∈ ([⟨distRect, p0⟩] : List (View.Piece (Elt F) S1024x1024 .f32)), y ∈ pc.1.set :=
  View.cover_of_tiled [⟨distRect, p0⟩] S1024x1024.size (by rfl) y

/-! ## The body's triple -/

set_option maxHeartbeats 1000000 in
/-- On whole buffers, the inputs' at contents `xi`, `xj` and the output's at anything, the body runs to the inputs' as
    they were and the output's at `distBlock xi xj`. -/
theorem body_triple (c : Dev nD) (E : Set ℕ) (i : grid0.Coords) (arg2 : Memref sig .tc .vmem S1024x64 .f32) (harg2 : arg2.IsWhole) (arg3 : Memref sig .tc .vmem S1024x64 .f32) (harg3 : arg3.IsWhole) (arg4 : Memref sig .tc .vmem S1024x1024 .f32) (harg4 : arg4.IsWhole)
    (xi : Vec F S1024x64 .f32) (xj : Vec F S1024x64 .f32) (K : PUnit → sProp 𝕄) :
    iprop(owns (c : Thread nD τ) arg2 fullShare xi ∗ owns (c : Thread nD τ) arg3 fullShare xj ∗ (∃ d, owns (c : Thread nD τ) arg4 fullShare d)
        ∗ (iprop(owns (c : Thread nD τ) arg2 fullShare xi ∗ owns (c : Thread nD τ) arg3 fullShare xj ∗ owns (c : Thread nD τ) arg4 fullShare (distBlock xi xj)) -∗ K ⟨⟩))
      ⊢ wp frame (wpE (defs₀ (F := F)) Variants.none c none) E (cc0__pairwise_distance_kernel i arg2 harg2 arg3 harg3 arg4 harg4) K := by
  simp only [cc0__pairwise_distance_kernel_eq_skeleton]; unfold cc0__pairwise_distance_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (dist_cover _)

/-! ## The pipeline's proof data -/

/-- On core `c`: the arrays at the launch contents; after the body at point `t` each input buffer at its block and the
    output buffer at the distances of the two blocks; the invariant the scoped rest and the generator register,
    untouched; nothing owed; the shared argument array dealt in halves to the two input windows. -/
def dat (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => distBlock (blockAt m c 0 t) (blockAt m c 1 t)
  Φ _ := Pipeline.ΦA spec0 c
  q w := match w with
    | ⟨0, _⟩ => fullShare.left
    | ⟨1, _⟩ => fullShare.right
    | ⟨2, _⟩ => fullShare
  owed _ := 0

theorem dat_A (c : Dev nD) (w : Fin cfg0.W) : (dat m c).A w = entry m c (Pipeline.arrRef spec0 w) := by
  dsimp only [dat]
theorem after_rows (c : Dev nD) (t : Fin cfg0.N) : (dat m c).after 0 t = blockAt m c 0 t := by dsimp only [dat]
theorem after_cols (c : Dev nD) (t : Fin cfg0.N) : (dat m c).after 1 t = blockAt m c 1 t := by dsimp only [dat]
theorem after_dist (c : Dev nD) (t : Fin cfg0.N) : (dat m c).after 2 t = distBlock (blockAt m c 0 t) (blockAt m c 1 t) := by dsimp only [dat]

theorem before_rows (c : Dev nD) (t : Fin cfg0.N) (d) : (dat m c).before 0 t d = blockAt m c 0 t :=
  before_rows_of m (dat m c) (dat_A m c 0) (after_rows m c) t d
theorem before_cols (c : Dev nD) (t : Fin cfg0.N) (d) : (dat m c).before 1 t d = blockAt m c 1 t :=
  before_cols_of m (dat m c) (dat_A m c 1) (after_cols m c) t d

/-! ## The body obligation -/

/-- What the body is called with at point `t`, the windows one by one, -/
def bodyPre (c : Dev nD) (t : Fin cfg0.N) : sProp 𝕄 :=
  iprop((dat m c).Φ t.castSucc ∗ (dat m c).owesAt () t.castSucc
    ∗ (∃ d, owns (c : Thread nD τ) (st0_0 t) fullShare ((dat m c).before 0 t d))
    ∗ (∃ d, owns (c : Thread nD τ) (st0_1 t) fullShare ((dat m c).before 1 t d))
    ∗ (∃ d, owns (c : Thread nD τ) (st0_2 t) fullShare ((dat m c).before 2 t d)))

/-- and what it returns. -/
def bodyPost (c : Dev nD) (t : Fin cfg0.N) : sProp 𝕄 :=
  iprop((dat m c).Φ t.succ ∗ (dat m c).owesAt () t.succ
    ∗ owns (c : Thread nD τ) (st0_0 t) fullShare ((dat m c).after 0 t)
    ∗ owns (c : Thread nD τ) (st0_1 t) fullShare ((dat m c).after 1 t)
    ∗ owns (c : Thread nD τ) (st0_2 t) fullShare ((dat m c).after 2 t))

/-- At any point the input buffers hold their blocks, so the body's triple applies; the invariant and what the core
    owes pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_cols]
  rw [show (dat m c).Φ t.succ = (dat m c).Φ t.castSucc from rfl,
    show (dat m c).owesAt () t.succ = (dat m c).owesAt () t.castSucc from rfl,
    after_rows, after_cols, after_dist]
  iintro ⟨HΦ, Ho, ⟨%d0, H0⟩, ⟨%d1, H1⟩, ⟨%d2, H2⟩⟩
  iapply (body_triple c Set.univ (grid0.coords t) _ _ _ _ _ _ (blockAt m c 0 t) (blockAt m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dat (F := F) m c) (defs₀ (F := F)) Variants.none () Set.univ := fun t => by
  rw [bigSep_W0, bigSep_W0]
  exact body_at m c t

end Cert.KernelIdeal.Pairwise

end
-- ==== Proof.DistRun.lean ====
/-
  The whole run of @main: the kernel region, then the 24 host operations that turn `ids` into index pairs and gather.

  The pipeline rule asks, at the region's entry, for each window's array at that window's share. Windows 0 and 1 stage
  the SAME argument array, so the array's full ownership is split there into its left and right halves, one per window
  (both halves at the same contents), and joined again at the exit: the pipeline never writes an input array, so both
  halves still hold the launch contents. The output array goes in whole and comes back at what the write-backs left.
  After the region every unscoped buffer is held again, the output array at its final contents and every other buffer
  as launched, and the host operations run from there.
-/
import proofs.«145142_j9861244911651_1_alg».proof.Proof.DistBody
import Idealize.ShloMosaic.Lib.Pipeline.Frame
import Idealize.ShloMosaic.Lib.Pipeline.Regions

set_option maxRecDepth 16384

noncomputable section

namespace Cert.KernelIdeal.Pairwise

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the three boundaries -/

/-- At launch. -/
abbrev atLaunch : Dev nD → Valuation τ sig (Elt F) := fun c b => m ((c : Dev nD), b)

/-- After the region: the distance matrix's buffer at what the 64 write-backs left, every other buffer as launched. -/
def afterRegion (c : Dev nD) : Valuation τ sig (Elt F) :=
  Function.update (atLaunch m c) (Proc.devRef .tc main_v0) ((dat m c).arrAt 2 cfg0.N)

theorem afterRegion_dist (c : Dev nD) : afterRegion m c (Proc.devRef .tc main_v0) = (dat m c).arrAt 2 cfg0.N := by
  unfold afterRegion; exact Function.update_self ..
theorem afterRegion_of_ne (c : Dev nD) (b : Ref sig .tc) (h : b ≠ main_v0) :
    afterRegion m c (Proc.devRef .tc b) = atLaunch m c (Proc.devRef .tc b) := by
  unfold afterRegion
  exact Function.update_of_ne (StableHlo.devRef_ne_of_ne h) ..

/-- After the host operations. -/
def atEnd (c : Dev nD) : Valuation τ sig (Elt F) := StableHlo.after hostOps1 (afterRegion m c)

/-! ## The unscoped buffers as the two arrays' buffers and the rest; the windows' arrays at their shares -/

/-- The two distinct buffers behind the three windows' arrays. -/
theorem arrBufs_two (c : Dev nD) (V : (b : Ref sig .tc) → Buf (Elt F) ((c : Thread nD τ).loc b)) :
    (Pipeline.arrBufs spec0 c V : sProp 𝕄)
      = iprop((((c : Thread nD τ).loc main_arg0) ↦{fullShare} V main_arg0) ∗ (((c : Thread nD τ).loc main_v0) ↦{fullShare} V main_v0)) := by
  unfold Pipeline.arrBufs
  exact bigSep_eq_bigSepL_of_eq [main_arg0, main_v0] (by decide) (by decide) _

/-- Every unscoped buffer held at `W` is those two buffers and the rest at `W`. -/
theorem held_split (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0)) ∗ (((c : Thread nD τ).loc main_v0) ↦{fullShare} W (Proc.devRef .tc main_v0))
          ∗ Pipeline.unscopedRest spec0 c (fun b => W (Proc.devRef .tc b))) := by
  have hs : (unscopedBufs c (fun b => W (Proc.devRef .tc b)) : sProp 𝕄)
      = iprop(Pipeline.arrBufs spec0 c (fun b => W (Proc.devRef .tc b)) ∗ Pipeline.unscopedRest spec0 c (fun b => W (Proc.devRef .tc b))) :=
    Pipeline.PerCore.unscopedBufs_split₀ (fun _ : Dev nD => cfgs) (0 : Fin 1) c winFacts₀0.arr_unscoped _
  rw [← Pipeline.unscopedBufs_held (Ix := Unit) (Name := ℕ) (U := UR sig nD τ) (Lvl := ℕ) c W, hs, arrBufs_two]
  exact equiv_iff.mp ⟨BI.sep_assoc, BI.sep_assoc'⟩

/-- The windows' arrays at contents `A`: the argument array's left half for window 0, its right half for window 1, the
    distance matrix whole for window 2. -/
theorem arrays_three (c : Dev nD) (A : (w : Fin cfg0.W) → Buf (Elt F) ((cfg0.win w).arr.view.loc (c : Thread nD τ))) :
    ((dat m c).arrays A : sProp 𝕄)
      = iprop((((c : Thread nD τ).loc main_arg0) ↦{fullShare.left} A 0) ∗ (((c : Thread nD τ).loc main_arg0) ↦{fullShare.right} A 1)
          ∗ (((c : Thread nD τ).loc main_v0) ↦{fullShare} A 2)) := by
  unfold Dat.arrays
  rw [bigSep_W0]
  have h0 : (cfg0.win (0 : Fin 3)).arr.view.set = Finset.univ := (arr_whole0 0).set_eq_univ
  have h2 : (cfg0.win (2 : Fin 3)).arr.view.set = Finset.univ := (arr_whole0 2).set_eq_univ
  rw [h0, h2]
  rfl

/-- The rest does not see the distance matrix's buffer. -/
theorem rest_afterRegion (c : Dev nD) :
    (Pipeline.unscopedRest spec0 c (fun b => afterRegion m c (Proc.devRef .tc b)) : sProp 𝕄)
      = Pipeline.unscopedRest spec0 c (fun b => atLaunch m c (Proc.devRef .tc b)) := by
  unfold Pipeline.unscopedRest
  exact bigSep_congr fun b hb => by
    beta_reduce
    rw [afterRegion_of_ne m c b fun e => (Finset.mem_sdiff.mp hb).2 (e ▸ Finset.mem_image.mpr ⟨2, Finset.mem_univ _, rfl⟩)]

/-! ## The segments -/

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dat m c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers: the generator register at some state, and the core owing nothing. -/
abbrev beside (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor

set_option backward.isDefEq.respectTransparency.types false in
/-- The kernel region, entered from every unscoped buffer at the launch contents and left at `afterRegion`. -/
def region : RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (atLaunch m c) ∗ beside c)
  post c := iprop(StableHlo.held (c : Thread nD τ) (Pipeline.ucRefs τ sig) (afterRegion m c) ∗ beside c)
  X c := iprop(∃ r, prngReg c r)
  Y c := iprop(∃ r, prngReg c r)
  Z c := Pipeline.unscopedRest (Ix := Unit) (Name := ℕ) (U := UR sig nD τ) (Lvl := ℕ) spec0 c (fun b => atLaunch m c (Proc.devRef .tc b))
  hentry c := by
    rw [Pipeline.ownSems0_none, held_split]
    rw [show (pdats m 0 c).arrays ((pdats m 0 c).arrAt · 0) = (dat m c).arrays ((dat m c).arrAt · 0) from rfl, arrays_three]
    iintro ⟨⟨⟨Ha, Hv, Hrest⟩, Hp, HO⟩, -, -⟩
    ihave Hs := (pointsTo_share (PosShare.mem_left_op_right fullShare)).1 $$ Ha
    icases Hs with ⟨Hl, Hr⟩
    imodintro
    isplitl [Hl Hr Hv]
    · isplitl [Hl]; · iexact Hl
      isplitl [Hr]; · iexact Hr
      iexact Hv
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [held_split, rest_afterRegion, afterRegion_dist, afterRegion_of_ne m c main_arg0 (by decide)]
    rw [show (pdats m 0 c).arrays ((pdats m 0 c).arrAt · (Pipeline.pin (pcfgs (F := F)) adm 0).N) = (dat m c).arrays ((dat m c).arrAt · cfg0.N) from rfl, arrays_three,
      (dat m c).arrAt_in 0 rfl, (dat m c).arrAt_in 1 rfl]
    iintro ⟨⟨Hl, Hr, Hv⟩, HO, HY, Hrest⟩
    ihave Ha := (pointsTo_share (PosShare.mem_left_op_right fullShare)).2 $$ [Hl Hr]
    · isplitl [Hl]; · iexact Hl
      iexact Hr
    imodintro
    isplitl [Ha Hv Hrest]
    · isplitl [Ha]; · iexact Ha
      isplitl [Hv]; · iexact Hv
      iexact Hrest
    isplitl [HY]; · iexact HY
    unfold Pipeline.Dat.owesAt Pipeline.owesWithin
    icases HO with ⟨%W, -, HO⟩; iexists W; iexact HO

/-- The host operations after the region, over every unscoped buffer from `afterRegion`. -/
abbrev hostTail : HostSeg (Name := ℕ) (U := UR sig nD τ) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (afterRegion m) beside

abbrev segs : List (Seg (pcfgs (F := F)) adm (pdats m) () defs₀ 𝒱₀ L lv) :=
  [ .region (region m), .host (hostTail m) ]

theorem main_run (c : Dev nD) : main (F := F) c = Seg.run (segs m) := (main_chain c).trans (by chain_rfl)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The run -/

set_option backward.isDefEq.respectTransparency.types false in
/-- From any memory with zero counters every weakly fair execution of @main terminates, faulting nowhere, and every
    final state has every unscoped buffer at `atEnd`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atEnd m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atLaunch m c) ∗ beside c))
    (Tₙ := fun c => iprop(StableHlo.held (c : Thread nD τ) (Pipeline.ucRefs τ sig) (atEnd m c) ∗ ∃ r, prngReg c r))
    (hch := ⟨fun _ => .rfl, fun _ => .rfl, fun c => by
      show iprop(StableHlo.held (c : Thread nD τ) (Pipeline.ucRefs τ sig) (StableHlo.after hostOps1 (afterRegion m c)) ∗ beside c)
        ⊢ iprop(iprop(StableHlo.held (c : Thread nD τ) (Pipeline.ucRefs τ sig) (atEnd m c) ∗ ∃ r, prngReg c r) ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (atLaunch m c)
        from Pipeline.unscopedBufs_held c (atLaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atEnd m c b)
    (hfin := fun c s' => by
      iintro ⟨⟨Hh, -⟩, HSI⟩
      unfold StableHlo.held
      imodintro
      iapply (pointsTo_read_all (Pipeline.ucRefs τ sig) (fun b => (((c : Thread nD τ)).1, b)) (atEnd m c) s')
      isplitl [Hh] <;> iassumption)
    (hQ := fun s h c => h c)

/-! ## The arguments end as launched -/

theorem atEnd_arg0 (c : Dev nD) : atEnd m c (Proc.devRef .tc main_arg0) = m ((c : Thread nD τ).loc main_arg0) := by
  have e : atEnd m c (Proc.devRef .tc main_arg0) = afterRegion m c (Proc.devRef .tc main_arg0) := by
    show StableHlo.after hostOps1 (afterRegion m c) (Proc.devRef .tc main_arg0) = _
    after_results
  exact e.trans (afterRegion_of_ne m c main_arg0 (by decide))
theorem atEnd_arg1 (c : Dev nD) : atEnd m c (Proc.devRef .tc main_arg1) = m ((c : Thread nD τ).loc main_arg1) := by
  have e : atEnd m c (Proc.devRef .tc main_arg1) = afterRegion m c (Proc.devRef .tc main_arg1) := by
    show StableHlo.after hostOps1 (afterRegion m c) (Proc.devRef .tc main_arg1) = _
    after_results
  exact e.trans (afterRegion_of_ne m c main_arg1 (by decide))

/-- The run read at the result and at the two arguments. -/
theorem run_main : θ_run defs (onTc (τ := τ) (main (F := F))) ⟨m, fun _ => 0, ρ⟩ (fun r => ∀ c : Dev nD,
      r.2.mem ((c.tc : Thread nD τ).loc main_v20) = atEnd m c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v20 (by decide)),
     (h c _ (mem_uc main_arg0 (by decide))).trans (atEnd_arg0 m c),
     (h c _ (mem_uc main_arg1 (by decide))).trans (atEnd_arg1 m c)⟩) (run_all m ρ)

/-- The frame: @main runs to the end, faults nowhere, and leaves its arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Pairwise

end
-- ==== Proof.RowDist.lean ====
/-
  The distance of two rows, as one function on the extended reals.

  For rows a, b of 64 entries: with |a|² = ∑ₖ aₖ·aₖ and ⟨a, b⟩ = ∑ₖ aₖ·bₖ,
      d² = max((|a|² + |b|²) − 2·⟨a, b⟩, 0),   pos = (d² > 0),   dist = select(pos, √(select(pos, d², 1)), 0).
  The operations are the exact ones of the extended reals and the three constants the f32 words of 2, 0 and 1; nothing
  here is evaluated: both programs are shown to compute this same expression entry by entry.
-/
import Idealize.ShloMosaic.PureOps.Ideal
import Idealize.ShloMosaic.PureOps.Ideal.Laws

noncomputable section

namespace Cert.RowDist

open Idealize.ShloMosaic

/-- |a|², the sum of the squares of a row's entries. -/
def sqNorm (a : Fin 64 → Ideal .f32) : Ideal .f32 := ∑ k : Fin 64, a k * a k

/-- ⟨a, b⟩, the sum of the products of two rows' entries. -/
def inner (a b : Fin 64 → Ideal .f32) : Ideal .f32 := ∑ k : Fin 64, a k * b k

/-- From the two squared norms and the inner product to the distance. -/
def ofParts (na nb ab : Ideal .f32) : Ideal .f32 :=
  Scalar.select
    (FloatOps.cmpf (F := Ideal) .ogt
      (FloatOps.maximumf (F := Ideal) (FloatOps.subf (F := Ideal) (FloatOps.addf (F := Ideal) na nb) (FloatOps.mulf (F := Ideal) (FloatOps.ofBits .f32 0x40000000#32) ab)) (FloatOps.ofBits .f32 0x00000000#32))
      (FloatOps.ofBits .f32 0x00000000#32))
    (FloatOps.sqrt (F := Ideal)
      (Scalar.select
        (FloatOps.cmpf (F := Ideal) .ogt
          (FloatOps.maximumf (F := Ideal) (FloatOps.subf (F := Ideal) (FloatOps.addf (F := Ideal) na nb) (FloatOps.mulf (F := Ideal) (FloatOps.ofBits .f32 0x40000000#32) ab)) (FloatOps.ofBits .f32 0x00000000#32))
          (FloatOps.ofBits .f32 0x00000000#32))
        (FloatOps.maximumf (F := Ideal) (FloatOps.subf (F := Ideal) (FloatOps.addf (F := Ideal) na nb) (FloatOps.mulf (F := Ideal) (FloatOps.ofBits .f32 0x40000000#32) ab)) (FloatOps.ofBits .f32 0x00000000#32))
        (FloatOps.ofBits .f32 0x3F800000#32)))
    (FloatOps.ofBits .f32 0x00000000#32)

/-- The distance of rows `a` and `b`. -/
def dist (a b : Fin 64 → Ideal .f32) : Ideal .f32 := ofParts (sqNorm a) (sqNorm b) (inner a b)

end Cert.RowDist

end
-- ==== Proof.DistEntry.lean ====
/-
  The body's stored value, entry by entry: at (p, q) of the 1024 × 1024 block it is the distance of row p of the first
  loaded block and row q of the second.

  |x_p|² reaches (p, q) as lane sum → column [1024] → [1024, 1] → broadcast along the columns; |x_q|² as lane sum →
  [1024, 1] → transposed to [1, 1024] → broadcast along the rows; ⟨x_p, x_q⟩ is the matrix product of the first block
  with the transpose of the second, accumulated into zero. The rest is pointwise.
-/
import proofs.«145142_j9861244911651_1_alg».proof.Proof.Gen.KernelIdeal.Skeleton
import proofs.«145142_j9861244911651_1_alg».proof.Proof.RowDist
import Idealize.ShloMosaic.Lib.Pipeline.Value
import Idealize.ShloMosaic.Lib.ValueIdx
import Idealize.ShloMosaic.PureOps.Ideal.Laws

noncomputable section

namespace Cert.KernelIdeal.Pairwise

open Cert.KernelIdeal Cert.KernelIdeal.Gen Idealize.ShloMosaic Idealize.ShloMosaic.ValueIdx

/-- A lane sum of a 1024 × 64 block at row `p` (the accumulator word is the sum's neutral element, so it adds nothing). -/
theorem lane_sum (y : FVec Ideal S1024x64 .f32) (hφ : FKind.Formats .f32)
    (hacc : (0x00000000#32 : BitVec (FTy.bits .f32)) = FKind.add.neutral .f32 hφ) (p : Fin 1024) :
    multiReduction (F := Ideal) .add [1] S1024 y 0x00000000#32 reduces_S1024x64_S1024 hφ hacc (ix1 p) = ∑ k : Fin 64, y (ix2 p k) :=
  (Ideal.multiReduction_add_single y _ reduces_S1024x64_S1024 hφ hacc (ix1 p)).trans
    (Finset.sum_congr rfl fun k _ => congrArg y (funext fun a => Fin.ext (by match a with | ⟨0, _⟩ => rfl | ⟨1, _⟩ => rfl)))

/-- A column [1024] kept as [1024, 1]. -/
theorem column_apply (v : FVec Ideal S1024 .f32) (p : Fin 1024) :
    shapeCast S1024x1 v shapeCasts_S1024_S1024x1 (ix2 p 0) = v (ix1 p) :=
  shapeCast_apply v shapeCasts_S1024_S1024x1 (ix2 p 0) (ix1 p)
    (by rw [Shape.rowMajor_val_one, Shape.rowMajor_val_two]; show p.val = p.val * 1 + 0; omega)

/-- |x_p|² broadcast along the columns. -/
theorem sq_rows (x : FVec Ideal S1024x64 .f32) (hφ : FKind.Formats .f32)
    (hacc : (0x00000000#32 : BitVec (FTy.bits .f32)) = FKind.add.neutral .f32 hφ) (p q : Fin 1024) :
    broadcastTo S1024x1024 (shapeCast S1024x1 (multiReduction (F := Ideal) .add [1] S1024 (mulf x x) 0x00000000#32 reduces_S1024x64_S1024 hφ hacc) shapeCasts_S1024_S1024x1)
        broadcasts_S1024x1_S1024x1024 (ix2 p q)
      = Cert.RowDist.sqNorm (fun k => x (ix2 p k)) := by
  refine (broadcastTo_apply _ broadcasts_S1024x1_S1024x1024 (ix2 p q) (ix2 p 0) (fun a => match a with
    | ⟨0, _⟩ => by show p.val = if (1024 : Nat) = 1 then 0 else p.val; rw [if_neg (by decide)]
    | ⟨1, _⟩ => by show 0 = if (1 : Nat) = 1 then 0 else q.val; rw [if_pos rfl])).trans ?_
  refine (column_apply _ p).trans ?_
  exact lane_sum (mulf x x) hφ hacc p

/-- |x_q|² transposed to a row and broadcast along the rows. -/
theorem sq_cols (x : FVec Ideal S1024x64 .f32) (hφ : FKind.Formats .f32)
    (hacc : (0x00000000#32 : BitVec (FTy.bits .f32)) = FKind.add.neutral .f32 hφ) (p q : Fin 1024) :
    broadcastTo S1024x1024 (transpose S1x1024 [1, 0]
          (shapeCast S1024x1 (multiReduction (F := Ideal) .add [1] S1024 (mulf x x) 0x00000000#32 reduces_S1024x64_S1024 hφ hacc) shapeCasts_S1024_S1024x1)
          transposes_S1024x1_p1_0_S1x1024)
        broadcasts_S1x1024_S1024x1024 (ix2 p q)
      = Cert.RowDist.sqNorm (fun k => x (ix2 q k)) := by
  refine (broadcastTo_apply _ broadcasts_S1x1024_S1024x1024 (ix2 p q) (ix2 0 q) (fun a => match a with
    | ⟨0, _⟩ => by show 0 = if (1 : Nat) = 1 then 0 else p.val; rw [if_pos rfl]
    | ⟨1, _⟩ => by show q.val = if (1024 : Nat) = 1 then 0 else q.val; rw [if_neg (by decide)])).trans ?_
  refine (transpose_apply [1, 0] _ transposes_S1024x1_p1_0_S1x1024 (ix2 0 q) (ix2 q 0) (fun b => match b with
    | ⟨0, _⟩ => rfl
    | ⟨1, _⟩ => rfl)).trans ?_
  refine (column_apply _ q).trans ?_
  exact lane_sum (mulf x x) hφ hacc q

/-! ### The matrix product's operand indices at output (p, q) and contraction index k: (p, k) and (k, q) -/

theorem dot_lhs_0 (i : S1024x1024.Idx) (c : dot_S1024x64_S64x1024_S1024x1024_1_0_0_1_n_n.contr.Idx) :
    (dot_S1024x64_S64x1024_S1024x1024_1_0_0_1_n_n.lhsIdx i c 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem dot_lhs_1 (i : S1024x1024.Idx) (c : dot_S1024x64_S64x1024_S1024x1024_1_0_0_1_n_n.contr.Idx) :
    (dot_S1024x64_S64x1024_S1024x1024_1_0_0_1_n_n.lhsIdx i c 1).val = (c ⟨0, by decide⟩).val :=
  dot_S1024x64_S64x1024_S1024x1024_1_0_0_1_n_n.lhsIdx_val_of_single rfl i c
theorem dot_rhs_0 (i : S1024x1024.Idx) (c : dot_S1024x64_S64x1024_S1024x1024_1_0_0_1_n_n.contr.Idx) :
    (dot_S1024x64_S64x1024_S1024x1024_1_0_0_1_n_n.rhsIdx i c 0).val = (c ⟨0, by decide⟩).val :=
  dot_S1024x64_S64x1024_S1024x1024_1_0_0_1_n_n.rhsIdx_val_of_single rfl i c
theorem dot_rhs_1 (i : S1024x1024.Idx) (c : dot_S1024x64_S64x1024_S1024x1024_1_0_0_1_n_n.contr.Idx) :
    (dot_S1024x64_S64x1024_S1024x1024_1_0_0_1_n_n.rhsIdx i c 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- ⟨x_p, x_q⟩: the product of the first block with the transposed second block, into the zero accumulator. -/
theorem inner_entry (x0 x1 : FVec Ideal S1024x64 .f32) (p q : Fin 1024) :
    matmul (F := Ideal) dot_S1024x64_S64x1024_S1024x1024_1_0_0_1_n_n none x0
        (transpose S64x1024 [1, 0] x1 transposes_S1024x64_p1_0_S64x1024) (constant S1024x1024 .f32 0x00000000#32) (ix2 p q)
      = Cert.RowDist.inner (fun k => x0 (ix2 p k)) (fun k => x1 (ix2 q k)) := by
  refine (Ideal.matmul_constant_zero_apply dot_S1024x64_S64x1024_S1024x1024_1_0_0_1_n_n none x0 _ (ix2 p q)).trans ?_
  rw [← Equiv.sum_comp (ValueIdx.contrEquiv1 dot_S1024x64_S64x1024_S1024x1024_1_0_0_1_n_n 64 rfl rfl).symm]
  refine Finset.sum_congr rfl fun k _ => ?_
  have hk := ValueIdx.contrEquiv1_symm_val dot_S1024x64_S64x1024_S1024x1024_1_0_0_1_n_n 64 rfl rfl k
  have el : dot_S1024x64_S64x1024_S1024x1024_1_0_0_1_n_n.lhsIdx (ix2 p q) ((ValueIdx.contrEquiv1 dot_S1024x64_S64x1024_S1024x1024_1_0_0_1_n_n 64 rfl rfl).symm k) = ix2 p k :=
    funext fun a => Fin.ext (by
      match a with
      | ⟨0, _⟩ => exact dot_lhs_0 _ _
      | ⟨1, _⟩ => exact (dot_lhs_1 _ _).trans hk)
  have er : dot_S1024x64_S64x1024_S1024x1024_1_0_0_1_n_n.rhsIdx (ix2 p q) ((ValueIdx.contrEquiv1 dot_S1024x64_S64x1024_S1024x1024_1_0_0_1_n_n 64 rfl rfl).symm k) = ix2 k q :=
    funext fun a => Fin.ext (by
      match a with
      | ⟨0, _⟩ => exact (dot_rhs_0 _ _).trans hk
      | ⟨1, _⟩ => exact dot_rhs_1 _ _)
  rw [el, er]
  refine congrArg (x0 (ix2 p k) * ·) ?_
  exact transpose_apply [1, 0] x1 transposes_S1024x64_p1_0_S64x1024 (ix2 k q) (ix2 q k) (fun b => match b with
    | ⟨0, _⟩ => rfl
    | ⟨1, _⟩ => rfl)

/-- The stored value at (p, q) is the distance of the two blocks' rows p and q. -/
theorem stored_entry (x0 x1 : FVec Ideal S1024x64 .f32) (p q : Fin 1024) :
    k0_pay1 (F := Ideal) x0 x1 (ix2 p q) = Cert.RowDist.dist (fun k => x0 (ix2 p k)) (fun k => x1 (ix2 q k)) := by
  unfold Cert.RowDist.dist
  rw [← sq_rows x0 (.inl rfl) rfl p q, ← sq_cols x1 (.inl rfl) rfl p q, ← inner_entry x0 x1 p q]
  rfl

end Cert.KernelIdeal.Pairwise

end
-- ==== Proof.DistMatrix.lean ====
/-
  The whole distance matrix as one function of X: entry (r, c) is the distance of rows r and c.
-/
import proofs.«145142_j9861244911651_1_alg».proof.Proof.RowDist
import Idealize.ShloMosaic.Lib.ValueIdx

noncomputable section

namespace Cert.RowDist

open Idealize.ShloMosaic Idealize.ShloMosaic.ValueIdx

abbrev SX : Shape := ⟨2, ![8192, 64]⟩
abbrev SD : Shape := ⟨2, ![8192, 8192]⟩

/-- Row `r` of an 8192 × 64 array. -/
def row (X : SX.Idx → Ideal .f32) (r : Fin 8192) : Fin 64 → Ideal .f32 := fun k => X (ix2 r k)

/-- The 8192 × 8192 matrix of the rows' pairwise distances. -/
def matrix (X : SX.Idx → Ideal .f32) : SD.Idx → Ideal .f32 := fun i => dist (row X (i 0)) (row X (i 1))

end Cert.RowDist

end
-- ==== Proof.DistArray.lean ====
/-
  From the 64 blocks to the whole matrix.

  Grid point (i, j) writes back block (i, j) of the output array; it loaded rows 1024·i … of X through window 0 and rows
  1024·j … through window 1. So what it writes at (p, q) of the block — the distance of row p of the first loaded block
  and row q of the second — is the distance of rows 1024·i + p and 1024·j + q of X: block (i, j) of the matrix of pairwise
  distances. The 64 blocks tile the 8192 × 8192 array (entry (r, c) lies in block (r / 1024, c / 1024)), so after the
  region the array IS that matrix.
-/
import proofs.«145142_j9861244911651_1_alg».proof.Proof.DistRun
import proofs.«145142_j9861244911651_1_alg».proof.Proof.DistEntry
import proofs.«145142_j9861244911651_1_alg».proof.Proof.DistMatrix
import Idealize.ShloMosaic.Lib.Pipeline.Value
import Idealize.ShloMosaic.Lib.StableHlo.Run

set_option maxRecDepth 16384

noncomputable section

namespace Cert.KernelIdeal.Pairwise

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The index maps over the 8 × 8 grid: window 0 follows the output's row block, window 1 its column block, neither
    moves along the 64 features, and the output's block indices stay below 8. -/
theorem block_indices : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 7 ∧ win0_2.index t (1 : Fin 2) ≤ 7 :=
  (by decide +kernel : ∀ t : Fin grid0.N, _)

/-- Every block of the 8 × 8 tiling is some grid point's. -/
theorem block_onto : ∀ (q0 : Fin 8) (q1 : Fin 8), ∃ t : Fin cfg0.N, win0_2.index t = ![q0.val, q1.val] :=
  (by decide +kernel : ∀ (q0 : Fin 8) (q1 : Fin 8), ∃ t : Fin grid0.N, win0_2.index t = ![q0.val, q1.val])

/-- X as launched. -/
abbrev X0 (c : Dev nD) : Cert.RowDist.SX.Idx → Ideal .f32 := m ((c : Thread nD τ).loc main_arg0)

/-- Row `p` of window 0's block at `t` is row (row block) · 1024 + p of X. -/
theorem rows_block (c : Dev nD) (t : Fin cfg0.N) (p q : Fin 1024) :
    (fun k : Fin 64 => blockAt m c 0 t (ix2 p k)) = Cert.RowDist.row (X0 m c) ((((cfg0.win 2).blk t).view.emb (ix2 p q)) 0) := by
  obtain ⟨e0, e1, e2, e3, e4, e5⟩ := block_indices t
  funext k
  show X0 m c (((cfg0.win 0).blk t).view.emb (ix2 p k)) = X0 m c (ix2 ((((cfg0.win 2).blk t).view.emb (ix2 p q)) 0) k)
  refine congrArg (X0 m c) (funext fun a => Fin.ext ?_)
  match a with
  | ⟨0, _⟩ => show win0_0.index t (0 : Fin 2) * 1024 + 1 * p.val = win0_2.index t (0 : Fin 2) * 1024 + 1 * p.val; omega
  | ⟨1, _⟩ => show win0_0.index t (1 : Fin 2) * 64 + 1 * k.val = k.val; omega

/-- Row `q` of window 1's block at `t` is row (column block) · 1024 + q of X. -/
theorem cols_block (c : Dev nD) (t : Fin cfg0.N) (p q : Fin 1024) :
    (fun k : Fin 64 => blockAt m c 1 t (ix2 q k)) = Cert.RowDist.row (X0 m c) ((((cfg0.win 2).blk t).view.emb (ix2 p q)) 1) := by
  obtain ⟨e0, e1, e2, e3, e4, e5⟩ := block_indices t
  funext k
  show X0 m c (((cfg0.win 1).blk t).view.emb (ix2 q k)) = X0 m c (ix2 ((((cfg0.win 2).blk t).view.emb (ix2 p q)) 1) k)
  refine congrArg (X0 m c) (funext fun a => Fin.ext ?_)
  match a with
  | ⟨0, _⟩ => show win0_1.index t (0 : Fin 2) * 1024 + 1 * q.val = win0_2.index t (1 : Fin 2) * 1024 + 1 * q.val; omega
  | ⟨1, _⟩ => show win0_1.index t (1 : Fin 2) * 64 + 1 * k.val = k.val; omega

/-- What point `t` writes back is block `t` of the matrix of pairwise distances of X. -/
theorem flushed_eq (c : Dev nD) (t : Fin cfg0.N) :
    (dat m c).flushed 2 t = ((cfg0.win 2).blk t).view.read (Elt Ideal) (Cert.RowDist.matrix (X0 m c)) := by
  show (cfg0.win 2).cut (grid0.coords t) ((dat m c).after 2 t) = _
  rw [after_dist]
  unfold distBlock
  rw [View.canon_unit_zero zero_offsets]
  simp only [View.ld_unit_zero (S := S1024x64) zero_offsets]
  funext j
  obtain ⟨p, q, rfl⟩ : ∃ (p q : Fin 1024), j = ix2 p q := ⟨j 0, j 1, eq_ix2 j⟩
  show k0_pay1 (F := Ideal) (blockAt m c 0 t) (blockAt m c 1 t) (ix2 p q)
    = Cert.RowDist.dist (Cert.RowDist.row (X0 m c) ((((cfg0.win 2).blk t).view.emb (ix2 p q)) 0)) (Cert.RowDist.row (X0 m c) ((((cfg0.win 2).blk t).view.emb (ix2 p q)) 1))
  rw [← rows_block m c t p q, ← cols_block m c t p q]
  exact stored_entry (blockAt m c 0 t) (blockAt m c 1 t) p q

/-- An index of the array is in point `t`'s block iff each coordinate is in the block's range on its axis. -/
theorem mem_block (t : Fin cfg0.N) (i : S8192x8192.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- The blocks tile the array: entry (r, c) is in block (r / 1024, c / 1024). -/
theorem covered (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_2.index t (0 : Fin 2) = (i 0).val / 1024 := congrFun ht 0
  have q1 : win0_2.index t (1 : Fin 2) = (i 1).val / 1024 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 1024 ≤ (i 1).val ∧ (i 1).val < win0_2.index t (1 : Fin 2) * 1024 + 1024; omega

/-- After the region the output array is the matrix of pairwise distances of X. -/
theorem final_matrix (c : Dev nD) : (dat m c).arrAt 2 cfg0.N = Cert.RowDist.matrix (X0 m c) :=
  (dat m c).arrAt_eq_of_cover 2 (Cert.RowDist.matrix (X0 m c)) (fun t _ => flushed_eq m c t) covered

end Cert.KernelIdeal.Pairwise

end
-- ==== Proof.RefDist.lean ====
/-
  The reference's distance matrix, entry by entry: at index (r, c) it is the distance of rows r and c of X.

  Read through the reference's stages: the two keep-dims broadcasts of the row sums give |x_r|² and |x_c|² (each a
  host sum from the zero word, which adds nothing), the dot_general against the transpose gives ⟨x_r, x_c⟩, and the
  rest is pointwise.
-/
import proofs.«145142_j9861244911651_1_alg».proof.Proof.Gen.ReferenceIdeal.Read
import proofs.«145142_j9861244911651_1_alg».proof.Proof.DistMatrix
import Idealize.ShloMosaic.Lib.ValueIdx

noncomputable section

namespace Cert.ReferenceIdeal.RefDist

open Cert.ReferenceIdeal Cert.ReferenceIdeal.Gen Cert.ReferenceIdeal.Read Idealize.ShloMosaic Idealize.ShloMosaic.ValueIdx

/-- A host sum from the zero word is the sum. -/
theorem zero_word_add (s : Ideal .f32) : (FloatOps.ofBits (F := Ideal) .f32 0x00000000#32) + s = s := by
  show Ideal.ofBits .f32 0x00000000#32 + s = s
  rw [Ideal.ofBits_zero_f32, zero_add]

theorem dist_entry (X : (⟨S8192x64, .f32⟩ : BufTy).Contents (Elt Ideal)) (i : S8192x8192.Idx) :
    val_main_v18 (F := Ideal) X i = Cert.RowDist.dist (Cert.RowDist.row X (i 0)) (Cert.RowDist.row X (i 1)) := by
  have e1 : ∀ k, idx_main_v1 (idx_main_v2 (idx_main_v4 i)) k = ix2 (i 0) k := fun k =>
    funext fun a => Fin.ext (by match a with | ⟨0, _⟩ => rfl | ⟨1, _⟩ => rfl)
  have e2 : ∀ k, idx_main_v1 (idx_main_v3 (idx_main_v5 i)) k = ix2 (i 1) k := fun k =>
    funext fun a => Fin.ext (by match a with | ⟨0, _⟩ => rfl | ⟨1, _⟩ => rfl)
  have e3 : ∀ k, lidx_main_v8 i k = ix2 (i 0) k := fun k =>
    funext fun a => Fin.ext (by match a with | ⟨0, _⟩ => rfl | ⟨1, _⟩ => rfl)
  have e4 : ∀ k, idx_main_v7 (ridx_main_v8 i k) = ix2 (i 1) k := fun k =>
    funext fun a => Fin.ext (by match a with | ⟨0, _⟩ => rfl | ⟨1, _⟩ => rfl)
  simp only [val_main_v18_apply, val_main_v15_apply, val_main_v17_apply, val_main_v16_apply, val_main_v13_apply,
    val_main_v14_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply,
    val_main_cst_2_apply, val_main_cst_3_apply, val_main_cst_4_apply, val_main_call0_v1_apply, val_main_call0_v0_apply,
    val_main_call1_v1_apply, val_main_call1_v0_apply, e1, e2, e3, e4, zero_word_add]
  rfl

/-- The reference's distance matrix is the matrix of the rows' pairwise distances. -/
theorem matrix_eq (X : (⟨S8192x64, .f32⟩ : BufTy).Contents (Elt Ideal)) :
    val_main_v18 (F := Ideal) X = Cert.RowDist.matrix X := funext fun i => dist_entry X i

end Cert.ReferenceIdeal.RefDist

end
-- ==== Proof.Bridge.lean ====
/-
  The two programs' results are one function of X and `ids`.

  Both programs end with the same three steps on their distance matrix D: build the 100 index pairs from `ids` (each index
  below zero wrapped by 8192), gather D at the pairs, reshape to 50 × 2. Written once as `gathered D ids`, the reference's
  result is `gathered` of its matrix stage and the kernel program's is `gathered` of what the region left in the output
  array; both matrices are the matrix of pairwise distances of X, so the results are equal whatever `ids` holds.
-/
import proofs.«145142_j9861244911651_1_alg».proof.Proof.DistArray
import proofs.«145142_j9861244911651_1_alg».proof.Proof.RefDist

set_option maxRecDepth 16384

noncomputable section

namespace Cert.Bridge

open Idealize.ShloMosaic Idealize.ShloMosaic.TcCoe Idealize.SL.Sem
open Cert.KernelIdeal.Pairwise

/-- The index pairs from `ids`, the gather of the matrix `D` at them, the reshape. -/
def gathered (D : (⟨Cert.ReferenceIdeal.S8192x8192, .f32⟩ : BufTy).Contents (Elt Ideal))
    (ids : (⟨Cert.ReferenceIdeal.S200, .i32⟩ : BufTy).Contents (Elt Ideal)) :
    (⟨Cert.ReferenceIdeal.S50x2, .f32⟩ : BufTy).Contents (Elt Ideal) :=
  shapeCast _ (Host.gather Cert.ReferenceIdeal.gather_S8192x8192_S100x2_S100_n_01_n_n_01_1_11 D
    (Cert.ReferenceIdeal.Read.val_main_v36 (F := Ideal) ids)) Cert.ReferenceIdeal.Gen.shapeCasts_S100_S50x2

/-- The reference's result is `gathered` of its distance-matrix stage. -/
theorem reference_result (X : (⟨Cert.ReferenceIdeal.S8192x64, .f32⟩ : BufTy).Contents (Elt Ideal))
    (ids : (⟨Cert.ReferenceIdeal.S200, .i32⟩ : BufTy).Contents (Elt Ideal)) :
    Cert.ReferenceIdeal.Read.val_main_v38 (F := Ideal) X ids = gathered (Cert.ReferenceIdeal.Read.val_main_v18 (F := Ideal) X) ids := rfl

set_option maxHeartbeats 2000000 in
/-- The kernel program's result is `gathered` of what the region left in the output array, and of `ids`. -/
theorem kernel_result (m : (ℓ : Loc Cert.KernelIdeal.nD Cert.KernelIdeal.τ Cert.KernelIdeal.sig) → Buf (Elt Ideal) ℓ) (c : Dev Cert.KernelIdeal.nD) :
    atEnd m c (Proc.devRef .tc Cert.KernelIdeal.main_v20)
      = gathered (afterRegion m c (Proc.devRef .tc Cert.KernelIdeal.main_v0)) (afterRegion m c (Proc.devRef .tc Cert.KernelIdeal.main_arg1)) := by
  show StableHlo.after (Cert.KernelIdeal.Gen.hostOps1 (F := Ideal)) (afterRegion m c) (Proc.devRef .tc Cert.KernelIdeal.main_v20) = _
  after_results_simp <;> rfl

/-- From memories that agree on X and `ids`, the reference's result is the kernel program's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hX : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (hids : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.res_main_v38 m' c = atEnd m c (Proc.devRef .tc Cert.KernelIdeal.main_v20) := by
  rw [Cert.ReferenceIdeal.Read.val_main_v38_eq, hX, hids, reference_result, Cert.ReferenceIdeal.RefDist.matrix_eq,
    kernel_result, afterRegion_dist, final_matrix, afterRegion_of_ne m c Cert.KernelIdeal.main_arg1 (by decide)]

end Cert.Bridge

end
-- ==== Proof.lean ====
/-
  Pairwise distances of the rows of X, gathered at the index pairs `ids` names: a Pallas kernel against jnp.

  The kernel tiles the 8192 × 8192 matrix D of distances d(r, c) = select(d² > 0, √(select(d² > 0, d², 1)), 0),
  d² = max((|x_r|² + |x_c|²) − 2·⟨x_r, x_c⟩, 0), into 64 blocks of 1024 × 1024; each block is computed from two 1024 × 64 row
  blocks of X, both fetched from the one argument array. The reference computes D whole. Both then gather D at the same
  100 index pairs made from `ids`. Over the extended reals the two compute D entry by entry by the same operations in the
  same grouping (a lane sum against a host sum, a matrix product into zero against a dot_general), so the results are
  equal for every X and every `ids`: no finiteness is used.

  The frames: the kernel program runs its region through the pipeline rule with the argument array's ownership dealt in
  halves to the two input windows that stage it, then its host operations; nothing writes an argument. The ideal pass
  rewrote nothing, so the idealized kernel is the kernel's own text and there is nothing to preserve.
-/
import proofs.«145142_j9861244911651_1_alg».proof.Defs
import proofs.«145142_j9861244911651_1_alg».proof.Proof.Gen.Kernel
import proofs.«145142_j9861244911651_1_alg».proof.Proof.Gen.KernelIdeal
import proofs.«145142_j9861244911651_1_alg».proof.Proof.Gen.ReferenceIdeal
import proofs.«145142_j9861244911651_1_alg».proof.Proof.Gen.Pre_finite_inputs
import proofs.«145142_j9861244911651_1_alg».proof.Proof.Gen.ReferenceIdeal.Run
import proofs.«145142_j9861244911651_1_alg».proof.Proof.Gen.ReferenceIdeal.Read
import proofs.«145142_j9861244911651_1_alg».proof.Proof.DistRunBits
import proofs.«145142_j9861244911651_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Pairwise.frame (F := Bits) m ρ

theorem frame_kernel_ideal : Cert.frame_KernelIdeal := fun m ρ _ => Cert.KernelIdeal.Pairwise.frame (F := Ideal) m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run, and end with the same gathered distances. -/
theorem algebraic : Cert.algebraic_KernelIdeal_ReferenceIdeal := by
  intro m ρ m' ρ' _ hagree
  refine ⟨fun c => Cert.KernelIdeal.Pairwise.atEnd m c (Proc.devRef .tc Cert.KernelIdeal.main_v20),
    Cert.KernelIdeal.Pairwise.run_main (F := Ideal) m ρ, ?_⟩
  refine (θ_run Cert.ReferenceIdeal.defs _ _).mono (fun _ h c => ⟨(h c).1.trans ?_, (h c).2⟩)
    (Cert.ReferenceIdeal.Value.run (F := Ideal) m' ρ')
  exact Cert.Bridge.results_agree m m' c (hagree c).1 (hagree c).2

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
